-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S128x40 .f32) (main_arg7 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg6
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg7
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x128 .f32) (main_arg1 : IVec S600000 32) (main_arg2 : IVec S600000 32) (main_arg3 : FVec F S128x128 .f32) (main_arg4 : FVec F S128x128 .f32) (main_arg5 : FVec F S128 .f32) (main_arg6 : FVec F S128x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩
abbrev S1x40 : Shape := ⟨2, ![1, 40]⟩
abbrev S100000x40 : Shape := ⟨2, ![100000, 40]⟩
abbrev S4000x128 : Shape := ⟨2, ![4000, 128]⟩
abbrev S4000x1 : Shape := ⟨2, ![4000, 1]⟩
abbrev S4000x40 : Shape := ⟨2, ![4000, 40]⟩

abbrev nBuf : Space → Nat
  | .hbm => 32
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S_, .f32⟩
  | .hbm, ⟨18, _⟩ => ⟨S100000x128, .f32⟩
  | .hbm, ⟨19, _⟩ => ⟨S600000x1, .i32⟩
  | .hbm, ⟨20, _⟩ => ⟨S100000x128, .f32⟩
  | .hbm, ⟨21, _⟩ => ⟨S_, .f32⟩
  | .hbm, ⟨22, _⟩ => ⟨S600000, .f32⟩
  | .hbm, ⟨23, _⟩ => ⟨S_, .f32⟩
  | .hbm, ⟨24, _⟩ => ⟨S100000, .f32⟩
  | .hbm, ⟨25, _⟩ => ⟨S600000x1, .i32⟩
  | .hbm, ⟨26, _⟩ => ⟨S100000, .f32⟩
  | .hbm, ⟨27, _⟩ => ⟨S100000x1, .f32⟩
  | .hbm, ⟨28, _⟩ => ⟨S1x128, .f32⟩
  | .hbm, ⟨29, _⟩ => ⟨S1x40, .f32⟩
  | .hbm, ⟨30, _⟩ => ⟨S100000x40, .f32⟩
  | .hbm, ⟨31, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S128x40, .f32⟩
  | .local _ .vmem, ⟨10, _⟩ => ⟨S1x40, .f32⟩
  | .local _ .vmem, ⟨11, _⟩ => ⟨S4000x40, .f32⟩
  | .local _ .vmem, ⟨12, _⟩ => ⟨S4000x40, .f32⟩
  | .local _ .vmem, ⟨13, _⟩ => ⟨S4000x128, .f32⟩
  | .local _ .vmem, ⟨14, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_cst_1 : Ref sig .tc := ⟨.hbm, 21, rfl⟩
abbrev main_call0_v10 : Ref sig .tc := ⟨.hbm, 22, rfl⟩
abbrev main_call0_cst_2 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_v0_0 : Ref sig .tc := ⟨.hbm, 30, rfl⟩
abbrev main_v0_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x40 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x40 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  shapeCasts_S128_S1x128 : S128.ShapeCasts S1x128
  shapeCasts_S40_S1x40 : S40.ShapeCasts S1x40
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  inb_S4000x40_S4000x40_0_0 : ∀ a, (![0, 0] : Fin 2 → Nat) a + S4000x40.size a ≤ S4000x40.size a
  h_S4000x40 : 0 < S4000x40.numel
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S4000x128_S128x128_S4000x128_1_0_0_1_n_n_wf : DotDims.WF S4000x128 S128x128 S4000x128 [1] [0] [0] [1] [] []
  dot_S4000x128_S128x40_S4000x40_1_0_0_1_n_n_wf : DotDims.WF S4000x128 S128x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x40.size a ≤ S128x40.size a
  hwx0_6 : ∀ i : grid0.Coords, EltTy.bits .f32 = 32 ∨ (Rect.block (s := S128x40) S128x40.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x40.size a ≤ S1x40.size a
  hwx0_7 : ∀ i : grid0.Coords, EltTy.bits .f32 = 32 ∨ (Rect.block (s := S1x40) S1x40.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x40.size a ≤ S100000x40.size a
  hwx0_8 : ∀ i : grid0.Coords, EltTy.bits .f32 = 32 ∨ (Rect.block (s := S100000x40) S4000x40.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S100000x128.size a
  hwx0_9 : ∀ i : grid0.Coords, EltTy.bits .f32 = 32 ∨ (Rect.block (s := S100000x128) S4000x128.size (cc0_transform_9 i) (hinb0_9 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x40_S4000x40_1_0_0_1_n_n : DotDims S4000x128 S128x40 S4000x40 where
  lhsContracting := [1]
  rhsContracting := [0]
  lhsNonContracting := [0]
  rhsNonContracting := [1]
  lhsBatch := []
  rhsBatch := []
  wf := dot_S4000x128_S128x40_S4000x40_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v9) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v14) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x40.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v16) S1x40.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S4000x40.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩
abbrev S100000x40 : Shape := ⟨2, ![100000, 40]⟩
abbrev S1x40 : Shape := ⟨2, ![1, 40]⟩

abbrev nBuf : Space → Nat
  | .hbm => 46
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S_, .f32⟩
  | .hbm, ⟨18, _⟩ => ⟨S100000x128, .f32⟩
  | .hbm, ⟨19, _⟩ => ⟨S600000x1, .i32⟩
  | .hbm, ⟨20, _⟩ => ⟨S100000x128, .f32⟩
  | .hbm, ⟨21, _⟩ => ⟨S_, .f32⟩
  | .hbm, ⟨22, _⟩ => ⟨S600000, .f32⟩
  | .hbm, ⟨23, _⟩ => ⟨S_, .f32⟩
  | .hbm, ⟨24, _⟩ => ⟨S100000, .f32⟩
  | .hbm, ⟨25, _⟩ => ⟨S600000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S100000x40, .f32⟩
  | .hbm, ⟨43, _⟩ => ⟨S1x40, .f32⟩
  | .hbm, ⟨44, _⟩ => ⟨S100000x40, .f32⟩
  | .hbm, ⟨45, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_cst : Ref sig .tc := ⟨.hbm, 39, rfl⟩
abbrev main_call0_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.SageLayer.lean ====
/-
  One GraphSAGE layer with mean aggregation and a linear classifier head, entry by entry on the extended reals.

  For a node with feature row `f`, summed neighbour features `a` and in-degree `d`, the hidden activation in
  column `c` is  max( Σ_k f_k · Ws[k,c]  +  Σ_k (a_k / max(d, 1)) · Wn[k,c]  +  β_c , 0 ),
  and the class score in column `j` is  Σ_k h_k · Wp[k,j] + β'_j  for the node's hidden row `h`.
  Both are written once here, over one row at a time, and then lifted to whole arrays; the two programs are each
  shown to compute these same functions of the same arrays.
-/
import Idealize.ShloMosaic.PureOps.Ideal
import Idealize.ShloMosaic.Lib.ValueIdx

noncomputable section

open scoped BigOperators

namespace Cert.SageLayer

open Idealize.ShloMosaic Idealize.ShloMosaic.ValueIdx

/-- The hidden activation of one node in column `c`: the self term plus the mean-neighbour term plus the bias,
    clipped below at zero. The divisor is the in-degree raised to at least one (the word `0x3F800000` is 1.0). -/
def hiddenEntry (f a : Fin 128 → EReal) (d : EReal) (Ws Wn : (⟨2, ![128, 128]⟩ : Shape).Idx → EReal) (β : EReal)
    (c : Fin 128) : EReal :=
  max (((∑ k : Fin 128, f k * Ws (ix2 k c))
      + ∑ k : Fin 128, Ideal.div (a k) (max d (Ideal.ofBits .f32 0x3F800000#32)) * Wn (ix2 k c)) + β)
    (Ideal.ofBits .f32 0x00000000#32)

/-- The class score of one node in column `j` from its hidden row. -/
def scoreEntry (h : Fin 128 → EReal) (Wp : (⟨2, ![128, 40]⟩ : Shape).Idx → EReal) (β : EReal) (j : Fin 40) : EReal :=
  (∑ k : Fin 128, h k * Wp (ix2 k j)) + β

/-- The hidden layer of all 100000 nodes: node `r` uses row `r` of the features and of the summed neighbour
    features, and its own in-degree. -/
def hidden (feat agg : (⟨2, ![100000, 128]⟩ : Shape).Idx → EReal) (deg : (⟨1, ![100000]⟩ : Shape).Idx → EReal)
    (Ws Wn : (⟨2, ![128, 128]⟩ : Shape).Idx → EReal) (b : (⟨1, ![128]⟩ : Shape).Idx → EReal) :
    (⟨2, ![100000, 128]⟩ : Shape).Idx → EReal :=
  fun i => hiddenEntry (fun k => feat (ix2 (n0 := 100000) (i 0) k)) (fun k => agg (ix2 (n0 := 100000) (i 0) k))
    (deg (ix1 (n := 100000) (i 0))) Ws Wn (b (ix1 (n := 128) (i 1))) (i 1)

/-- The class scores of all nodes from the hidden layer. -/
def scores (hid : (⟨2, ![100000, 128]⟩ : Shape).Idx → EReal) (Wp : (⟨2, ![128, 40]⟩ : Shape).Idx → EReal)
    (bp : (⟨1, ![40]⟩ : Shape).Idx → EReal) : (⟨2, ![100000, 40]⟩ : Shape).Idx → EReal :=
  fun i => scoreEntry (fun k => hid (ix2 (n0 := 100000) (i 0) k)) Wp (bp (ix1 (n := 40) (i 1))) (i 1)

theorem hidden_ix2 (feat agg : (⟨2, ![100000, 128]⟩ : Shape).Idx → EReal) (deg : (⟨1, ![100000]⟩ : Shape).Idx → EReal)
    (Ws Wn : (⟨2, ![128, 128]⟩ : Shape).Idx → EReal) (b : (⟨1, ![128]⟩ : Shape).Idx → EReal) (r : Fin 100000) (c : Fin 128) :
    hidden feat agg deg Ws Wn b (ix2 r c)
      = hiddenEntry (fun k => feat (ix2 r k)) (fun k => agg (ix2 r k)) (deg (ix1 r)) Ws Wn (b (ix1 c)) c := rfl

theorem scores_ix2 (hid : (⟨2, ![100000, 128]⟩ : Shape).Idx → EReal) (Wp : (⟨2, ![128, 40]⟩ : Shape).Idx → EReal)
    (bp : (⟨1, ![40]⟩ : Shape).Idx → EReal) (r : Fin 100000) (j : Fin 40) :
    scores hid Wp bp (ix2 r j) = scoreEntry (fun k => hid (ix2 r k)) Wp (bp (ix1 j)) j := rfl

end Cert.SageLayer

end
-- ==== Proof.KernelEntry.lean ====
/-
  What the kernel's region finds in the arrays its host operations prepare.

  Before the region the program gathers the source node's feature row for every edge and scatter-adds it into the
  destination node's row (the summed neighbour features), scatter-adds a one per edge into the destination's slot
  (the in-degree), lays the in-degree out as a column, and lays each bias vector out as a one-row matrix. Here each
  of those four arrays, as the region finds it, is named as that term of the launch contents; the column and the two
  one-row matrices are then read at an entry: the column's entry in row r is the in-degree of node r, and a bias
  row's entry in column q is the bias vector's entry q.
-/
import proofs.«177919_j57844619542595_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (m : (ℓ : Loc nD τ sig) → Buf (Elt F) ℓ)

/-- The summed neighbour features: for every edge, the feature row of its source node (a negative source index
    counted from the end) added into the row of its destination node, from zero. -/
def aggOf (x0 : (⟨S100000x128, .f32⟩ : BufTy).Contents (Elt F)) (x1 x2 : (⟨S600000, .i32⟩ : BufTy).Contents (Elt F)) :
    (⟨S100000x128, .f32⟩ : BufTy).Contents (Elt F) :=
  Host.scatterAdd scatter_S100000x128_S600000x1_S600000x128_1_0_0_1
    (broadcastInDim S100000x128 ![] bcast_S_S100000x128 (constant (F := F) S_ .f32 0x00000000#32))
    (broadcastInDim S600000x1 ![0] bcast_S600000_S600000x1_0 x2)
    (Host.gather gather_S100000x128_S600000x1_S600000x128_1_0_n_n_0_1_1128 x0
      (broadcastInDim S600000x1 ![0] bcast_S600000_S600000x1_0
        (select (cmpi .slt x1 (broadcastInDim S600000 ![] bcast_S_S600000 (constantI S_ 32 0#32)))
          (addi x1 (broadcastInDim S600000 ![] bcast_S_S600000 (constantI S_ 32 100000#32))) x1)))

/-- The in-degrees: a one for every edge added into its destination node's slot, from zero. -/
def degOf (x2 : (⟨S600000, .i32⟩ : BufTy).Contents (Elt F)) : (⟨S100000, .f32⟩ : BufTy).Contents (Elt F) :=
  Host.scatterAdd scatter_S100000_S600000x1_S600000_n_0_0_1
    (broadcastInDim S100000 ![] bcast_S_S100000 (constant (F := F) S_ .f32 0x00000000#32))
    (broadcastInDim S600000x1 ![0] bcast_S600000_S600000x1_0 x2)
    (broadcastInDim S600000 ![] bcast_S_S600000 (constant (F := F) S_ .f32 0x3F800000#32))

/-- The region finds the summed neighbour features in the second window's array. -/
theorem V_agg (c : Dev nD) : (V m c main_call0_v9 : (⟨S100000x128, .f32⟩ : BufTy).Contents (Elt F))
    = aggOf (m ((c : Thread nD τ).loc main_arg0)) (m ((c : Thread nD τ).loc main_arg1)) (m ((c : Thread nD τ).loc main_arg2)) := by
  dsimp only [Gen.V, Gen.hostOps0]
  after_results
  rfl

/-- The region finds the in-degrees, laid out as a column, in the third window's array. -/
theorem V_degColumn (c : Dev nD) : (V m c main_call0_v14 : (⟨S100000x1, .f32⟩ : BufTy).Contents (Elt F))
    = broadcastInDim S100000x1 ![0] bcast_S100000_S100000x1_0 (degOf (m ((c : Thread nD τ).loc main_arg2))) := by
  dsimp only [Gen.V, Gen.hostOps0]
  after_results
  rfl

/-- The region finds the hidden layer's bias as a one-row matrix. -/
theorem V_biasRow (c : Dev nD) : (V m c main_call0_v15 : (⟨S1x128, .f32⟩ : BufTy).Contents (Elt F))
    = shapeCast S1x128 (m ((c : Thread nD τ).loc main_arg5) : (⟨S128, .f32⟩ : BufTy).Contents (Elt F)) shapeCasts_S128_S1x128 := by
  dsimp only [Gen.V, Gen.hostOps0]
  after_results
  rfl

/-- The region finds the classifier's bias as a one-row matrix. -/
theorem V_biasRow' (c : Dev nD) : (V m c main_call0_v16 : (⟨S1x40, .f32⟩ : BufTy).Contents (Elt F))
    = shapeCast S1x40 (m ((c : Thread nD τ).loc main_arg7) : (⟨S40, .f32⟩ : BufTy).Contents (Elt F)) shapeCasts_S40_S1x40 := by
  dsimp only [Gen.V, Gen.hostOps0]
  after_results
  rfl

/-- The in-degree column's entry in row r is the in-degree of node r. -/
theorem degColumn_apply (c : Dev nD) (r : Fin 100000) :
    (V m c main_call0_v14 : (⟨S100000x1, .f32⟩ : BufTy).Contents (Elt F)) (ix2 r (0 : Fin 1))
      = degOf (m ((c : Thread nD τ).loc main_arg2)) (ix1 r) := by
  rw [V_degColumn]
  exact broadcastInDim_apply _ bcast_S100000_S100000x1_0 _ (ix2 r (0 : Fin 1)) (ix1 r) (fun a => match a with
    | ⟨0, _⟩ => by show r.val = if (100000 : Nat) = 1 then 0 else r.val; rw [if_neg (by decide)])

/-- The hidden layer's bias row at column q is the bias vector's entry q. -/
theorem biasRow_apply (c : Dev nD) (q : Fin 128) :
    (V m c main_call0_v15 : (⟨S1x128, .f32⟩ : BufTy).Contents (Elt F)) (ix2 (0 : Fin 1) q)
      = (m ((c : Thread nD τ).loc main_arg5) : (⟨S128, .f32⟩ : BufTy).Contents (Elt F)) (ix1 q) := by
  rw [V_biasRow]
  exact shapeCast_a_1a_apply _ shapeCasts_S128_S1x128 (0 : Fin 1) q

/-- The classifier's bias row at column j is the bias vector's entry j. -/
theorem biasRow'_apply (c : Dev nD) (j : Fin 40) :
    (V m c main_call0_v16 : (⟨S1x40, .f32⟩ : BufTy).Contents (Elt F)) (ix2 (0 : Fin 1) j)
      = (m ((c : Thread nD τ).loc main_arg7) : (⟨S40, .f32⟩ : BufTy).Contents (Elt F)) (ix1 j) := by
  rw [V_biasRow']
  exact shapeCast_a_1a_apply _ shapeCasts_S40_S1x40 (0 : Fin 1) j

end Cert.KernelIdeal.Entry

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.BodyAtEntry.lean ====
/-
  The kernel body's two stored values, read at one entry of a 4000-row block.

  The body holds a block of 4000 nodes: their feature rows `x0`, summed neighbour rows `x1`, in-degrees `x2` (one
  column), and the whole weight matrices and bias rows. What it stores for the hidden block at (p, q) is the
  layer's hidden entry of node p's rows, and what it stores for the score block at (p, j) is the score entry of the
  hidden row it has just computed for node p. A change of float format is the identity at exact arithmetic, the
  two products into a zero accumulator are plain sums over the 128 contracted positions, and the two broadcasts
  (the degree column across 128 lanes, a bias row down 4000 rows) read the one entry they copy.
-/
import proofs.«177919_j57844619542595_2_alg».proof.Proof.Gen.KernelIdeal.Skeleton
import proofs.«177919_j57844619542595_2_alg».proof.Proof.LibMatmulIdx
import proofs.«177919_j57844619542595_2_alg».proof.Proof.SageLayer
import Idealize.ShloMosaic.Lib.Pipeline.Value
import Idealize.ShloMosaic.Lib.ValueLayout

noncomputable section

open scoped BigOperators

namespace Cert.KernelIdeal.Body

open Cert.KernelIdeal Cert.KernelIdeal.Gen Idealize.ShloMosaic Idealize.ShloMosaic.ValueIdx Cert.SageLayer

/-! ## The two contraction records: operand indices are (row, k) and (k, column) -/

theorem dotH_l0 (j : S4000x128.Idx) (k : dot_S4000x128_S128x128_S4000x128_1_0_0_1_n_n.contr.Idx) :
    (dot_S4000x128_S128x128_S4000x128_1_0_0_1_n_n.lhsIdx j k 0).val = (j 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem dotH_r1 (j : S4000x128.Idx) (k : dot_S4000x128_S128x128_S4000x128_1_0_0_1_n_n.contr.Idx) :
    (dot_S4000x128_S128x128_S4000x128_1_0_0_1_n_n.rhsIdx j k 1).val = (j 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl
theorem dotS_l0 (j : S4000x40.Idx) (k : dot_S4000x128_S128x40_S4000x40_1_0_0_1_n_n.contr.Idx) :
    (dot_S4000x128_S128x40_S4000x40_1_0_0_1_n_n.lhsIdx j k 0).val = (j 0).val := by
  unfold DotDims.lhsIdx
  rw [dif_neg (show ¬(0 : Fin S4000x128.rank) ∈ dot_S4000x128_S128x40_S4000x40_1_0_0_1_n_n.lhsBatch by decide), dif_pos (show (0 : Fin S4000x128.rank) ∈ dot_S4000x128_S128x40_S4000x40_1_0_0_1_n_n.lhsNonContracting by decide)]
  rfl
theorem dotS_r1 (j : S4000x40.Idx) (k : dot_S4000x128_S128x40_S4000x40_1_0_0_1_n_n.contr.Idx) :
    (dot_S4000x128_S128x40_S4000x40_1_0_0_1_n_n.rhsIdx j k 1).val = (j 1).val := by
  unfold DotDims.rhsIdx
  rw [dif_neg (show ¬(1 : Fin S128x40.rank) ∈ dot_S4000x128_S128x40_S4000x40_1_0_0_1_n_n.rhsBatch by decide), dif_pos (show (1 : Fin S128x40.rank) ∈ dot_S4000x128_S128x40_S4000x40_1_0_0_1_n_n.rhsNonContracting by decide)]
  rfl

/-- A 4000×128 block times a 128×128 matrix into zero, at (p, q): Σ_k l[p,k] · r[k,q]. -/
theorem matmulH_apply {φ₁ φ₂ : FTy} (l : FVec Ideal S4000x128 φ₁) (r : FVec Ideal S128x128 φ₂) (p : Fin 4000) (q : Fin 128) :
    matmul dot_S4000x128_S128x128_S4000x128_1_0_0_1_n_n none l r (constant S4000x128 .f32 0x00000000#32) (ix2 p q)
      = ∑ k : Fin 128, l (ix2 p k) * r (ix2 k q) :=
  LibMatmulIdx.matmul2_apply dot_S4000x128_S128x128_S4000x128_1_0_0_1_n_n rfl rfl dotH_l0
    (fun j k => dot_S4000x128_S128x128_S4000x128_1_0_0_1_n_n.lhsIdx_val_of_single rfl j k)
    (fun j k => dot_S4000x128_S128x128_S4000x128_1_0_0_1_n_n.rhsIdx_val_of_single rfl j k) dotH_r1 none l r (ix2 p q)

/-- A 4000×128 block times a 128×40 matrix into zero, at (p, j): Σ_k l[p,k] · r[k,j]. -/
theorem matmulS_apply {φ₁ φ₂ : FTy} (l : FVec Ideal S4000x128 φ₁) (r : FVec Ideal S128x40 φ₂) (p : Fin 4000) (j : Fin 40) :
    matmul dot_S4000x128_S128x40_S4000x40_1_0_0_1_n_n none l r (constant S4000x40 .f32 0x00000000#32) (ix2 p j)
      = ∑ k : Fin 128, l (ix2 p k) * r (ix2 k j) :=
  LibMatmulIdx.matmul2_apply dot_S4000x128_S128x40_S4000x40_1_0_0_1_n_n rfl rfl dotS_l0
    (fun j k => dot_S4000x128_S128x40_S4000x40_1_0_0_1_n_n.lhsIdx_val_of_single rfl j k)
    (fun j k => dot_S4000x128_S128x40_S4000x40_1_0_0_1_n_n.rhsIdx_val_of_single rfl j k) dotS_r1 none l r (ix2 p j)

/-- A column [a, 1] broadcast across b lanes reads, at (p, q), the column's entry in row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The stored values at an entry -/

/-- The hidden block at (p, q) is the layer's hidden entry of node p's rows in the block. -/
theorem pay1_apply (x0 x1 : Vec Ideal S4000x128 .f32) (x2 : Vec Ideal S4000x1 .f32) (x3 x4 : Vec Ideal S128x128 .f32)
    (x5 : Vec Ideal S1x128 .f32) (p : Fin 4000) (q : Fin 128) :
    k0_pay1 x0 x1 x2 x3 x4 x5 (ix2 p q)
      = hiddenEntry (fun k => x0 (ix2 p k)) (fun k => x1 (ix2 p k)) (x2 (ix2 p (0 : Fin 1))) x3 x4 (x5 (ix2 (0 : Fin 1) q)) q := by
  unfold k0_pay1 hiddenEntry
  dsimp only
  refine (maximumf_apply _ _ _).trans (congrArg₂ max ?_ rfl)
  refine (addf_apply _ _ _).trans (congrArg₂ (· + ·) ((addf_apply _ _ _).trans (congrArg₂ (· + ·) ?_ ?_)) ?_)
  · exact matmulH_apply _ _ p q
  · refine (matmulH_apply _ _ p q).trans (Finset.sum_congr rfl fun k _ => congrArg₂ (· * ·) ?_ rfl)
    refine (truncf_apply (ψ := .bf16) _ bitsLt_bf16_f32 _).trans ((divf_apply _ _ _).trans (congrArg₂ Ideal.div ?_ ?_))
    · exact congrFun (shapeCast_self x1 _) (ix2 p k)
    · refine (broadcastTo_a1_ab_apply _ _ p k).trans ((maximumf_apply _ _ _).trans (congrArg₂ max ?_ rfl))
      exact congrFun (shapeCast_self x2 _) (ix2 p (0 : Fin 1))
  · exact (broadcastTo_1b_ab_apply _ _ p q).trans (congrFun (shapeCast_self x5 _) (ix2 (0 : Fin 1) q))

/-- The score block at (p, j) is the score entry of the hidden row the body has just computed for node p. -/
theorem pay2_apply (x0 x1 : Vec Ideal S4000x128 .f32) (x2 : Vec Ideal S4000x1 .f32) (x3 x4 : Vec Ideal S128x128 .f32)
    (x5 : Vec Ideal S1x128 .f32) (x6 : Vec Ideal S128x40 .f32) (x7 : Vec Ideal S1x40 .f32) (p : Fin 4000) (j : Fin 40) :
    k0_pay2 x0 x1 x2 x3 x4 x5 x6 x7 (ix2 p j)
      = scoreEntry (fun k => k0_pay1 x0 x1 x2 x3 x4 x5 (ix2 p k)) x6 (x7 (ix2 (0 : Fin 1) j)) j := by
  unfold k0_pay2 scoreEntry
  dsimp only
  refine (addf_apply _ _ _).trans (congrArg₂ (· + ·) ?_ ?_)
  · exact matmulS_apply _ _ p j
  · exact (broadcastTo_1b_ab_apply _ _ p j).trans (congrFun (shapeCast_self x7 _) (ix2 (0 : Fin 1) j))

end Cert.KernelIdeal.Body

end
-- ==== Proof.KernelValue.lean ====
/-
  From the kernel's 25 blocks to its two result arrays, at exact arithmetic.

  Grid point t works on nodes 4000·t … 4000·t + 3999: its feature, summed-neighbour and in-degree blocks are those
  rows of the arrays the region finds, the weight matrices and bias rows are whole at every point, and it writes back
  rows 4000·t … of both results. So what point t writes is block t of ONE function of the arrays — the layer's hidden
  function for the second result, the layer's scores of that hidden function for the first — and since the 25 blocks
  cover all 100000 rows, each result array ends as that function.
-/
import proofs.«177919_j57844619542595_2_alg».proof.Proof.Gen.KernelIdeal.Value
import proofs.«177919_j57844619542595_2_alg».proof.Proof.BodyAtEntry
import proofs.«177919_j57844619542595_2_alg».proof.Proof.SageLayer
import Idealize.ShloMosaic.Lib.Pipeline.Value
import Idealize.ShloMosaic.Lib.ValueIdx

noncomputable section

open scoped BigOperators

namespace Cert.KernelIdeal.Blocks

open Cert.KernelIdeal Cert.KernelIdeal.Gen Cert.KernelIdeal.Value Cert.KernelIdeal.Body
open Idealize.ShloMosaic Idealize.ShloMosaic.TcCoe Idealize.SL.Sem Idealize.ShloMosaic.ValueIdx Cert.SageLayer
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block index maps, decided over the 25 grid points: the five row-blocked windows move down one block per point,
    the five whole windows stay at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

theorem t_lt (t : Fin cfg0.N) : t.val < 25 := by
  have h := t.isLt
  have hN : cfg0.N = 25 := N_0
  omega

/-- Node 4000·t + p. -/
abbrev node (t : Fin cfg0.N) (p : Fin 4000) : Fin 100000 := ⟨4000 * t.val + p.val, by have := t_lt t; have := p.isLt; omega⟩

/-! ## Each input window's block at a point, read at an entry -/

theorem iblk0_apply (c : Dev nD) (t : Fin cfg0.N) (p : Fin 4000) (k : Fin 128) :
    (iblk m c 0 t : Vec Ideal S4000x128 .f32) (ix2 p k) = (V m c main_arg0 : S100000x128.Idx → EReal) (ix2 (node t p) k) := by
  obtain ⟨⟨h0, h1⟩, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 4000 + 1 * p.val = 4000 * t.val + p.val; rw [h0]; omega
  | ⟨1, _⟩ => show win0_0.index t (1 : Fin 2) * 128 + 1 * k.val = k.val; rw [h1]; omega

theorem iblk1_apply (c : Dev nD) (t : Fin cfg0.N) (p : Fin 4000) (k : Fin 128) :
    (iblk m c 1 t : Vec Ideal S4000x128 .f32) (ix2 p k) = (V m c main_call0_v9 : S100000x128.Idx → EReal) (ix2 (node t p) k) := by
  obtain ⟨-, ⟨h0, h1⟩, -⟩ := idx_facts t
  unfold iblk
  rw [View.read_apply]
  show V m c main_call0_v9 _ = V m c main_call0_v9 _
  refine congrArg (V m c main_call0_v9) (funext fun a => Fin.ext ?_)
  match a with
  | ⟨0, _⟩ => show win0_1.index t (0 : Fin 2) * 4000 + 1 * p.val = 4000 * t.val + p.val; rw [h0]; omega
  | ⟨1, _⟩ => show win0_1.index t (1 : Fin 2) * 128 + 1 * k.val = k.val; rw [h1]; omega

theorem iblk2_apply (c : Dev nD) (t : Fin cfg0.N) (p : Fin 4000) (u : Fin 1) :
    (iblk m c 2 t : Vec Ideal S4000x1 .f32) (ix2 p u) = (V m c main_call0_v14 : S100000x1.Idx → EReal) (ix2 (node t p) u) := by
  obtain ⟨-, -, ⟨h0, h1⟩, -⟩ := idx_facts t
  unfold iblk
  rw [View.read_apply]
  show V m c main_call0_v14 _ = V m c main_call0_v14 _
  refine congrArg (V m c main_call0_v14) (funext fun a => Fin.ext ?_)
  match a with
  | ⟨0, _⟩ => show win0_2.index t (0 : Fin 2) * 4000 + 1 * p.val = 4000 * t.val + p.val; rw [h0]; omega
  | ⟨1, _⟩ => show win0_2.index t (1 : Fin 2) * 1 + 1 * u.val = u.val; rw [h1]; omega

theorem iblk3_eq (c : Dev nD) (t : Fin cfg0.N) :
    (iblk m c 3 t : Vec Ideal S128x128 .f32) = (V m c main_arg3 : S128x128.Idx → EReal) := by
  obtain ⟨-, -, -, ⟨h0, h1⟩, -⟩ := idx_facts t
  funext y
  unfold iblk
  rw [View.read_apply]
  show V m c main_arg3 _ = V m c main_arg3 _
  refine congrArg (V m c main_arg3) (funext fun a => Fin.ext ?_)
  match a with
  | ⟨0, _⟩ => show win0_3.index t (0 : Fin 2) * 128 + 1 * (y 0).val = (y 0).val; rw [h0]; omega
  | ⟨1, _⟩ => show win0_3.index t (1 : Fin 2) * 128 + 1 * (y 1).val = (y 1).val; rw [h1]; omega

theorem iblk4_eq (c : Dev nD) (t : Fin cfg0.N) :
    (iblk m c 4 t : Vec Ideal S128x128 .f32) = (V m c main_arg4 : S128x128.Idx → EReal) := by
  obtain ⟨-, -, -, -, ⟨h0, h1⟩, -⟩ := idx_facts t
  funext y
  unfold iblk
  rw [View.read_apply]
  show V m c main_arg4 _ = V m c main_arg4 _
  refine congrArg (V m c main_arg4) (funext fun a => Fin.ext ?_)
  match a with
  | ⟨0, _⟩ => show win0_4.index t (0 : Fin 2) * 128 + 1 * (y 0).val = (y 0).val; rw [h0]; omega
  | ⟨1, _⟩ => show win0_4.index t (1 : Fin 2) * 128 + 1 * (y 1).val = (y 1).val; rw [h1]; omega

theorem iblk5_apply (c : Dev nD) (t : Fin cfg0.N) (u : Fin 1) (q : Fin 128) :
    (iblk m c 5 t : Vec Ideal S1x128 .f32) (ix2 u q) = (V m c main_call0_v15 : S1x128.Idx → EReal) (ix2 u q) := by
  obtain ⟨-, -, -, -, -, ⟨h0, h1⟩, -⟩ := idx_facts t
  unfold iblk
  rw [View.read_apply]
  show V m c main_call0_v15 _ = V m c main_call0_v15 _
  refine congrArg (V m c main_call0_v15) (funext fun a => Fin.ext ?_)
  match a with
  | ⟨0, _⟩ => show win0_5.index t (0 : Fin 2) * 1 + 1 * u.val = u.val; rw [h0]; omega
  | ⟨1, _⟩ => show win0_5.index t (1 : Fin 2) * 128 + 1 * q.val = q.val; rw [h1]; omega

theorem iblk6_eq (c : Dev nD) (t : Fin cfg0.N) :
    (iblk m c 6 t : Vec Ideal S128x40 .f32) = (V m c main_arg6 : S128x40.Idx → EReal) := by
  obtain ⟨-, -, -, -, -, -, ⟨h0, h1⟩, -⟩ := idx_facts t
  funext y
  unfold iblk
  rw [View.read_apply]
  show V m c main_arg6 _ = V m c main_arg6 _
  refine congrArg (V m c main_arg6) (funext fun a => Fin.ext ?_)
  match a with
  | ⟨0, _⟩ => show win0_6.index t (0 : Fin 2) * 128 + 1 * (y 0).val = (y 0).val; rw [h0]; omega
  | ⟨1, _⟩ => show win0_6.index t (1 : Fin 2) * 40 + 1 * (y 1).val = (y 1).val; rw [h1]; omega

theorem iblk7_apply (c : Dev nD) (t : Fin cfg0.N) (u : Fin 1) (j : Fin 40) :
    (iblk m c 7 t : Vec Ideal S1x40 .f32) (ix2 u j) = (V m c main_call0_v16 : S1x40.Idx → EReal) (ix2 u j) := by
  obtain ⟨-, -, -, -, -, -, -, ⟨h0, h1⟩, -⟩ := idx_facts t
  unfold iblk
  rw [View.read_apply]
  show V m c main_call0_v16 _ = V m c main_call0_v16 _
  refine congrArg (V m c main_call0_v16) (funext fun a => Fin.ext ?_)
  match a with
  | ⟨0, _⟩ => show win0_7.index t (0 : Fin 2) * 1 + 1 * u.val = u.val; rw [h0]; omega
  | ⟨1, _⟩ => show win0_7.index t (1 : Fin 2) * 40 + 1 * j.val = j.val; rw [h1]; omega

/-! ## The two result arrays as functions of what the region finds -/

/-- The in-degree vector, read off the column the region finds. -/
def degK (c : Dev nD) : (⟨1, ![100000]⟩ : Shape).Idx → EReal :=
  fun i => (V m c main_call0_v14 : S100000x1.Idx → EReal) (ix2 (n0 := 100000) (i 0) (0 : Fin 1))
/-- The hidden layer's bias vector, read off the one-row matrix the region finds. -/
def biasK (c : Dev nD) : (⟨1, ![128]⟩ : Shape).Idx → EReal :=
  fun i => (V m c main_call0_v15 : S1x128.Idx → EReal) (ix2 (n1 := 128) (0 : Fin 1) (i 0))
/-- The classifier's bias vector, read off the one-row matrix the region finds. -/
def biasK' (c : Dev nD) : (⟨1, ![40]⟩ : Shape).Idx → EReal :=
  fun i => (V m c main_call0_v16 : S1x40.Idx → EReal) (ix2 (n1 := 40) (0 : Fin 1) (i 0))

/-- The hidden layer of the arrays the region finds. -/
def hiddenK (c : Dev nD) : S100000x128.Idx → EReal :=
  hidden (V m c main_arg0) (V m c main_call0_v9) (degK m c) (V m c main_arg3) (V m c main_arg4) (biasK m c)
/-- The scores of that hidden layer. -/
def scoresK (c : Dev nD) : S100000x40.Idx → EReal :=
  scores (hiddenK m c) (V m c main_arg6) (biasK' m c)

/-- What point t computes for its node p in column q is the hidden layer at node 4000·t + p. -/
theorem hidden_blk (c : Dev nD) (t : Fin cfg0.N) (p : Fin 4000) (q : Fin 128) :
    k0_pay1 (iblk m c 0 t) (iblk m c 1 t) (iblk m c 2 t) (iblk m c 3 t) (iblk m c 4 t) (iblk m c 5 t) (ix2 p q)
      = hiddenK m c (ix2 (node t p) q) := by
  refine (pay1_apply (iblk m c 0 t) (iblk m c 1 t) (iblk m c 2 t) (iblk m c 3 t) (iblk m c 4 t) (iblk m c 5 t) p q).trans ?_
  have e0 : (fun k => (iblk m c 0 t : Vec Ideal S4000x128 .f32) (ix2 p k)) = fun k => (V m c main_arg0 : S100000x128.Idx → EReal) (ix2 (node t p) k) :=
    funext fun k => iblk0_apply m c t p k
  have e1 : (fun k => (iblk m c 1 t : Vec Ideal S4000x128 .f32) (ix2 p k)) = fun k => (V m c main_call0_v9 : S100000x128.Idx → EReal) (ix2 (node t p) k) :=
    funext fun k => iblk1_apply m c t p k
  rw [e0, e1, iblk2_apply m c t p 0, iblk3_eq m c t, iblk4_eq m c t, iblk5_apply m c t 0 q]
  rfl

/-- What point t computes for its node p in class j is the score at node 4000·t + p. -/
theorem scores_blk (c : Dev nD) (t : Fin cfg0.N) (p : Fin 4000) (j : Fin 40) :
    k0_pay2 (iblk m c 0 t) (iblk m c 1 t) (iblk m c 2 t) (iblk m c 3 t) (iblk m c 4 t) (iblk m c 5 t) (iblk m c 6 t) (iblk m c 7 t) (ix2 p j)
      = scoresK m c (ix2 (node t p) j) := by
  refine (pay2_apply (iblk m c 0 t) (iblk m c 1 t) (iblk m c 2 t) (iblk m c 3 t) (iblk m c 4 t) (iblk m c 5 t) (iblk m c 6 t) (iblk m c 7 t) p j).trans ?_
  have e : (fun k => k0_pay1 (iblk m c 0 t) (iblk m c 1 t) (iblk m c 2 t) (iblk m c 3 t) (iblk m c 4 t) (iblk m c 5 t) (ix2 p k))
      = fun k => hiddenK m c (ix2 (node t p) k) := funext fun k => hidden_blk m c t p k
  rw [e, iblk6_eq m c t, iblk7_apply m c t 0 j]
  rfl

/-! ## What each point writes back, the cover, and the run -/

theorem emb9 (t : Fin cfg0.N) (p : Fin 4000) (q : Fin 128) :
    ((cfg0.win 9).blk t).view.emb (ix2 p q) = (ix2 (node t p) q : S100000x128.Idx) := by
  obtain ⟨-, -, -, -, -, -, -, -, -, ⟨h0, h1⟩⟩ := idx_facts t
  refine funext fun a => Fin.ext ?_
  match a with
  | ⟨0, _⟩ => show win0_9.index t (0 : Fin 2) * 4000 + 1 * p.val = 4000 * t.val + p.val; rw [h0]; omega
  | ⟨1, _⟩ => show win0_9.index t (1 : Fin 2) * 128 + 1 * q.val = q.val; rw [h1]; omega

theorem emb8 (t : Fin cfg0.N) (p : Fin 4000) (j : Fin 40) :
    ((cfg0.win 8).blk t).view.emb (ix2 p j) = (ix2 (node t p) j : S100000x40.Idx) := by
  obtain ⟨-, -, -, -, -, -, -, -, ⟨h0, h1⟩, -⟩ := idx_facts t
  refine funext fun a => Fin.ext ?_
  match a with
  | ⟨0, _⟩ => show win0_8.index t (0 : Fin 2) * 4000 + 1 * p.val = 4000 * t.val + p.val; rw [h0]; omega
  | ⟨1, _⟩ => show win0_8.index t (1 : Fin 2) * 40 + 1 * j.val = j.val; rw [h1]; omega

/-- Point t writes back block t of the hidden layer. -/
theorem flushed9_eq (c : Dev nD) (t : Fin cfg0.N) :
    (dats m 0 c).flushed 9 t = ((cfg0.win 9).blk t).view.read (Elt Ideal) (hiddenK m c) := by
  rw [flushed9]
  unfold out0_9
  rw [View.canon_unit_zero hz]
  simp only [View.ld_unit_zero (S := S4000x128) hz, View.ld_unit_zero (S := S4000x1) hz, View.ld_unit_zero (S := S128x128) hz,
    View.ld_unit_zero (S := S1x128) hz]
  funext y
  obtain ⟨p, q, rfl⟩ : ∃ (p : Fin 4000) (q : Fin 128), y = ix2 p q := ⟨y 0, y 1, eq_ix2 y⟩
  show k0_pay1 (iblk m c 0 t) (iblk m c 1 t) (iblk m c 2 t) (iblk m c 3 t) (iblk m c 4 t) (iblk m c 5 t) (ix2 p q)
    = hiddenK m c (((cfg0.win 9).blk t).view.emb (ix2 p q))
  rw [emb9 t p q]
  exact hidden_blk m c t p q

/-- Point t writes back block t of the scores. -/
theorem flushed8_eq (c : Dev nD) (t : Fin cfg0.N) :
    (dats m 0 c).flushed 8 t = ((cfg0.win 8).blk t).view.read (Elt Ideal) (scoresK m c) := by
  rw [flushed8]
  unfold out0_8
  rw [View.canon_unit_zero hz]
  simp only [View.ld_unit_zero (S := S4000x128) hz, View.ld_unit_zero (S := S4000x1) hz, View.ld_unit_zero (S := S128x128) hz,
    View.ld_unit_zero (S := S1x128) hz, View.ld_unit_zero (S := S128x40) hz, View.ld_unit_zero (S := S1x40) hz]
  funext y
  obtain ⟨p, j, rfl⟩ : ∃ (p : Fin 4000) (j : Fin 40), y = ix2 p j := ⟨y 0, y 1, eq_ix2 y⟩
  show k0_pay2 (iblk m c 0 t) (iblk m c 1 t) (iblk m c 2 t) (iblk m c 3 t) (iblk m c 4 t) (iblk m c 5 t) (iblk m c 6 t) (iblk m c 7 t) (ix2 p j)
    = scoresK m c (((cfg0.win 8).blk t).view.emb (ix2 p j))
  rw [emb8 t p j]
  exact scores_blk m c t p j

theorem mem_blk9 (t : Fin cfg0.N) (i : S100000x128.Idx) :
    i ∈ ((cfg0.win 9).blk t).view.set ↔ ∀ a : Fin 2, win0_9.index t a * S4000x128.size a ≤ (i a).val ∧ (i a).val < win0_9.index t a * S4000x128.size a + S4000x128.size a := by
  show i ∈ ((View.whole main_v0_1).slice (win0_9.rect t)).set ↔ _
  rw [View.set_slice_whole, Rect.mem_set_unit]
  exact Iff.rfl

theorem mem_blk8 (t : Fin cfg0.N) (i : S100000x40.Idx) :
    i ∈ ((cfg0.win 8).blk t).view.set ↔ ∀ a : Fin 2, win0_8.index t a * S4000x40.size a ≤ (i a).val ∧ (i a).val < win0_8.index t a * S4000x40.size a + S4000x40.size a := by
  show i ∈ ((View.whole main_v0_0).slice (win0_8.rect t)).set ↔ _
  rw [View.set_slice_whole, Rect.mem_set_unit]
  exact Iff.rfl

/-- Row r lies in the block of point r / 4000. -/
theorem cover9 (i : S100000x128.Idx) : ∃ t : Fin cfg0.N, (cfg0.win 9).flush t = true ∧ i ∈ ((cfg0.win 9).blk t).view.set := by
  have hi0 : (i 0).val < 100000 := (i 0).isLt
  have hi1 : (i 1).val < 128 := (i 1).isLt
  let t : Fin cfg0.N := ⟨(i 0).val / 4000, by rw [show cfg0.N = 25 from N_0]; omega⟩
  obtain ⟨-, -, -, -, -, -, -, -, -, ⟨h0, h1⟩⟩ := idx_facts t
  have ht : t.val = (i 0).val / 4000 := rfl
  refine ⟨t, flush0_9 t, ?_⟩
  rw [mem_blk9]
  intro a
  match a with
  | ⟨0, _⟩ => show win0_9.index t (0 : Fin 2) * 4000 ≤ (i 0).val ∧ (i 0).val < win0_9.index t (0 : Fin 2) * 4000 + 4000; rw [h0, ht]; omega
  | ⟨1, _⟩ => show win0_9.index t (1 : Fin 2) * 128 ≤ (i 1).val ∧ (i 1).val < win0_9.index t (1 : Fin 2) * 128 + 128; rw [h1]; omega

theorem cover8 (i : S100000x40.Idx) : ∃ t : Fin cfg0.N, (cfg0.win 8).flush t = true ∧ i ∈ ((cfg0.win 8).blk t).view.set := by
  have hi0 : (i 0).val < 100000 := (i 0).isLt
  have hi1 : (i 1).val < 40 := (i 1).isLt
  let t : Fin cfg0.N := ⟨(i 0).val / 4000, by rw [show cfg0.N = 25 from N_0]; omega⟩
  obtain ⟨-, -, -, -, -, -, -, -, ⟨h0, h1⟩, -⟩ := idx_facts t
  have ht : t.val = (i 0).val / 4000 := rfl
  refine ⟨t, flush0_8 t, ?_⟩
  rw [mem_blk8]
  intro a
  match a with
  | ⟨0, _⟩ => show win0_8.index t (0 : Fin 2) * 4000 ≤ (i 0).val ∧ (i 0).val < win0_8.index t (0 : Fin 2) * 4000 + 4000; rw [h0, ht]; omega
  | ⟨1, _⟩ => show win0_8.index t (1 : Fin 2) * 40 ≤ (i 1).val ∧ (i 1).val < win0_8.index t (1 : Fin 2) * 40 + 40; rw [h1]; omega

/-- The second result array ends as the hidden layer. -/
theorem final9 (c : Dev nD) : (dats m 0 c).arrAt 9 cfg0.N = hiddenK m c :=
  (dats m 0 c).arrAt_eq_of_cover 9 (hiddenK m c) (fun t _ => flushed9_eq m c t) cover9

/-- The first result array ends as the scores. -/
theorem final8 (c : Dev nD) : (dats m 0 c).arrAt 8 cfg0.N = scoresK m c :=
  (dats m 0 c).arrAt_eq_of_cover 8 (scoresK m c) (fun t _ => flushed8_eq m c t) cover8

/-- The kernel's run: both results at the layer's functions of what the region finds, the arguments unchanged. -/
theorem run : θ_run defs (onTc (τ := τ) (main (F := Ideal))) ⟨m, fun _ => 0, ρ⟩ fun r => ∀ c : Dev nD,
      r.2.mem ((c : Thread nD τ).loc main_v0_0) = scoresK m c
      ∧ r.2.mem ((c : Thread nD τ).loc main_v0_1) = hiddenK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c), (h c).2.1.trans (final9 m c), (h c).2.2⟩)
    (run_blocks m ρ)

end Cert.KernelIdeal.Blocks

end
-- ==== Proof.RefIsLayer.lean ====
/-
  The reference computes the layer: read one operation at a time, its hidden result is `SageLayer.hidden` of the
  features, of its own summed-neighbour array and in-degree array, and of the weights; its score result is
  `SageLayer.scores` of that hidden result.

  The reference divides the summed neighbour features by max(deg, 1) broadcast from a vector to a column and then across
  the 128 lanes: at (r, k) that divisor is max(deg r, 1). Each of its three matrix products is, at exact arithmetic,
  the sum over the contracted position, and its bias rows are broadcast down the rows. The gather and the two
  scatter-adds that build the summed-neighbour and in-degree arrays are not opened: they stay as the stages
  `val_main_v9` and `val_main_v13`.
-/
import proofs.«177919_j57844619542595_2_alg».proof.Proof.Gen.ReferenceIdeal.Read
import proofs.«177919_j57844619542595_2_alg».proof.Proof.SageLayer

noncomputable section

open scoped BigOperators

namespace Cert.ReferenceIdeal.Layer

open Cert.ReferenceIdeal Cert.ReferenceIdeal.Read Idealize.ShloMosaic Idealize.ShloMosaic.ValueIdx Cert.SageLayer

/-! ## The operand indices the stages read, as coordinates -/

theorem lidx19 (r : Fin 100000) (c k : Fin 128) : lidx_main_v19 (ix2 r c) k = ix2 r k :=
  funext fun a => Fin.ext (by match a with | ⟨0, _⟩ => rfl | ⟨1, _⟩ => rfl)
theorem ridx19 (r : Fin 100000) (c k : Fin 128) : ridx_main_v19 (ix2 r c) k = ix2 k c :=
  funext fun a => Fin.ext (by match a with | ⟨0, _⟩ => rfl | ⟨1, _⟩ => rfl)
theorem lidx20 (r : Fin 100000) (c k : Fin 128) : lidx_main_v20 (ix2 r c) k = ix2 r k :=
  funext fun a => Fin.ext (by match a with | ⟨0, _⟩ => rfl | ⟨1, _⟩ => rfl)
theorem ridx20 (r : Fin 100000) (c k : Fin 128) : ridx_main_v20 (ix2 r c) k = ix2 k c :=
  funext fun a => Fin.ext (by match a with | ⟨0, _⟩ => rfl | ⟨1, _⟩ => rfl)
theorem lidx26 (r : Fin 100000) (j : Fin 40) (k : Fin 128) : lidx_main_v26 (ix2 r j) k = ix2 r k :=
  funext fun a => Fin.ext (by match a with | ⟨0, _⟩ => rfl | ⟨1, _⟩ => rfl)
theorem ridx26 (r : Fin 100000) (j : Fin 40) (k : Fin 128) : ridx_main_v26 (ix2 r j) k = ix2 k j :=
  funext fun a => Fin.ext (by match a with | ⟨0, _⟩ => rfl | ⟨1, _⟩ => rfl)
theorem idx_bias (r : Fin 100000) (c : Fin 128) : idx_main_v22 (idx_main_v23 (ix2 r c)) = ix1 c :=
  funext fun a => Fin.ext (by match a with | ⟨0, _⟩ => rfl)
theorem idx_bias' (r : Fin 100000) (j : Fin 40) : idx_main_v27 (idx_main_v28 (ix2 r j)) = ix1 j :=
  funext fun a => Fin.ext (by match a with | ⟨0, _⟩ => rfl)
theorem idx_deg (r : Fin 100000) (k : Fin 128) : idx_main_v16 (idx_main_v17 (ix2 r k)) = ix1 r :=
  funext fun a => Fin.ext (by match a with | ⟨0, _⟩ => rfl)

/-- The divisor at (r, k): the in-degree of node r raised to at least one. -/
theorem divisor_apply (x2 : (⟨S600000, .i32⟩ : BufTy).Contents (Elt Ideal)) (r : Fin 100000) (k : Fin 128) :
    val_main_v17 (F := Ideal) x2 (ix2 r k)
      = max (val_main_v13 (F := Ideal) x2 (ix1 r)) (Ideal.ofBits .f32 0x3F800000#32) := by
  rw [val_main_v17_apply, val_main_v16_apply, val_main_v15_apply, val_main_v14_apply, val_main_cst_3_apply, idx_deg r k]
  rfl

/-- The reference's hidden result is the layer's hidden function of its own arrays. -/
theorem hidden_eq (x0 : (⟨S100000x128, .f32⟩ : BufTy).Contents (Elt Ideal)) (x1 x2 : (⟨S600000, .i32⟩ : BufTy).Contents (Elt Ideal))
    (x3 x4 : (⟨S128x128, .f32⟩ : BufTy).Contents (Elt Ideal)) (x5 : (⟨S128, .f32⟩ : BufTy).Contents (Elt Ideal)) :
    val_main_v25 (F := Ideal) x0 x1 x2 x3 x4 x5
      = hidden x0 (val_main_v9 (F := Ideal) x0 x1 x2) (val_main_v13 (F := Ideal) x2) x3 x4 x5 := by
  funext i
  obtain ⟨r, c, rfl⟩ : ∃ (r : Fin 100000) (c : Fin 128), i = ix2 r c := ⟨i 0, i 1, eq_ix2 i⟩
  rw [hidden_ix2]
  unfold hiddenEntry
  refine (val_main_v25_apply x0 x1 x2 x3 x4 x5 _).trans (congrArg₂ max ?_ ?_)
  · refine (val_main_v24_apply x0 x1 x2 x3 x4 x5 _).trans (congrArg₂ (· + ·)
      ((val_main_v21_apply x0 x1 x2 x3 x4 _).trans (congrArg₂ (· + ·) ?_ ?_)) ?_)
    · exact (val_main_v19_apply x0 x3 _).trans (Finset.sum_congr rfl fun k _ =>
        congrArg₂ (· * ·) (congrArg x0 (lidx19 r c k)) (congrArg x3 (ridx19 r c k)))
    · refine (val_main_v20_apply x0 x1 x2 x4 _).trans (Finset.sum_congr rfl fun k _ =>
        congrArg₂ (· * ·) ?_ (congrArg x4 (ridx20 r c k)))
      rw [lidx20 r c k]
      exact (val_main_v18_apply x0 x1 x2 _).trans (congrArg₂ Ideal.div rfl (divisor_apply x2 r k))
    · exact (val_main_v23_apply x5 _).trans ((val_main_v22_apply x5 _).trans (congrArg x5 (idx_bias r c)))
  · exact (val_main_call0_v0_apply _).trans (val_main_call0_cst_apply _)

/-- The reference's score result is the layer's score function of its hidden result. -/
theorem scores_eq (x0 : (⟨S100000x128, .f32⟩ : BufTy).Contents (Elt Ideal)) (x1 x2 : (⟨S600000, .i32⟩ : BufTy).Contents (Elt Ideal))
    (x3 x4 : (⟨S128x128, .f32⟩ : BufTy).Contents (Elt Ideal)) (x5 : (⟨S128, .f32⟩ : BufTy).Contents (Elt Ideal))
    (x6 : (⟨S128x40, .f32⟩ : BufTy).Contents (Elt Ideal)) (x7 : (⟨S40, .f32⟩ : BufTy).Contents (Elt Ideal)) :
    val_main_v29 (F := Ideal) x0 x1 x2 x3 x4 x5 x6 x7
      = scores (val_main_v25 (F := Ideal) x0 x1 x2 x3 x4 x5) x6 x7 := by
  funext i
  obtain ⟨r, j, rfl⟩ : ∃ (r : Fin 100000) (j : Fin 40), i = ix2 r j := ⟨i 0, i 1, eq_ix2 i⟩
  rw [scores_ix2]
  unfold scoreEntry
  refine (val_main_v29_apply x0 x1 x2 x3 x4 x5 x6 x7 _).trans (congrArg₂ (· + ·) ?_ ?_)
  · exact (val_main_v26_apply x0 x1 x2 x3 x4 x5 x6 _).trans (Finset.sum_congr rfl fun k _ =>
      congrArg₂ (· * ·) (congrArg _ (lidx26 r j k)) (congrArg x6 (ridx26 r j k)))
  · exact (val_main_v28_apply x7 _).trans ((val_main_v27_apply x7 _).trans (congrArg x7 (idx_bias' r j)))

end Cert.ReferenceIdeal.Layer

end
-- ==== Proof.lean ====
/-
  One GraphSAGE layer (mean aggregation, a linear map of the node and of its neighbourhood mean, a bias, a clip at zero)
  followed by a linear classifier, computed two ways over 100000 nodes and 600000 edges: a TensorCore kernel over 25 blocks
  of 4000 nodes fed by a host gather and two host scatter-adds, and a plain array program. At exact arithmetic on the
  extended reals both results agree entry by entry.

  Both programs build the summed neighbour features and the in-degrees by the same gather and scatter-adds of the same
  inputs, so those two arrays are carried as they are and never opened. From them, both programs compute
      hidden[r, c] = max( Σ_k feat[r,k]·Ws[k,c] + Σ_k (agg[r,k] / max(deg[r], 1))·Wn[k,c] + b[c], 0 )
      score[r, j]  = Σ_k hidden[r,k]·Wp[k,j] + b'[j]
  with the sums in the same arrangement (one sum over the 128 contracted positions per product, the two products added
  first, the bias last), so no law of arithmetic beyond reading each operation at an entry is used, and the inputs'
  finiteness is never needed. The kernel rounds its matrix operands to a narrower float format first, which is the
  identity at exact arithmetic.

  The modules: `SageLayer` states the two functions; `BodyAtEntry` reads the kernel body's two stored values at an
  entry of a block; `KernelValue` goes from the 25 blocks to the two whole result arrays; `KernelEntry` names the
  arrays the host operations hand to the kernel; `RefIsLayer` reads the array program one operation at a time.
-/
import proofs.«177919_j57844619542595_2_alg».proof.Defs
import proofs.«177919_j57844619542595_2_alg».proof.Proof.Gen.Kernel
import proofs.«177919_j57844619542595_2_alg».proof.Proof.Gen.Kernel.Skeleton
import proofs.«177919_j57844619542595_2_alg».proof.Proof.Gen.Kernel.Launch
import proofs.«177919_j57844619542595_2_alg».proof.Proof.Gen.Kernel.Points
import proofs.«177919_j57844619542595_2_alg».proof.Proof.Gen.Kernel.Frame
import proofs.«177919_j57844619542595_2_alg».proof.Proof.Gen.KernelIdeal
import proofs.«177919_j57844619542595_2_alg».proof.Proof.Gen.KernelIdeal.Skeleton
import proofs.«177919_j57844619542595_2_alg».proof.Proof.Gen.KernelIdeal.Launch
import proofs.«177919_j57844619542595_2_alg».proof.Proof.Gen.KernelIdeal.Points
import proofs.«177919_j57844619542595_2_alg».proof.Proof.Gen.KernelIdeal.Frame
import proofs.«177919_j57844619542595_2_alg».proof.Proof.Gen.ReferenceIdeal
import proofs.«177919_j57844619542595_2_alg».proof.Proof.Gen.Pre_finite_inputs
import proofs.«177919_j57844619542595_2_alg».proof.Proof.Gen.KernelIdeal.Value
import proofs.«177919_j57844619542595_2_alg».proof.Proof.Gen.ReferenceIdeal.Run
import proofs.«177919_j57844619542595_2_alg».proof.Proof.Gen.ReferenceIdeal.Read
import proofs.«177919_j57844619542595_2_alg».proof.Proof.SageLayer
import proofs.«177919_j57844619542595_2_alg».proof.Proof.KernelEntry
import proofs.«177919_j57844619542595_2_alg».proof.Proof.KernelValue
import proofs.«177919_j57844619542595_2_alg».proof.Proof.RefIsLayer
import Idealize.ShloMosaic.Adequacy
import Idealize.ShloMosaic.Init

noncomputable section

namespace Cert.Proof

open Idealize.ShloMosaic Idealize.ShloMosaic.TcCoe Idealize.SL.Sem Idealize.ShloMosaic.ValueIdx Cert.SageLayer

/-! ## The two programs build the same summed-neighbour and in-degree arrays -/

/-- The kernel program's summed neighbour features are the array program's: the same gather and scatter-add. -/
theorem agg_same (x0 : (⟨Cert.KernelIdeal.S100000x128, .f32⟩ : BufTy).Contents (Elt Ideal))
    (x1 x2 : (⟨Cert.KernelIdeal.S600000, .i32⟩ : BufTy).Contents (Elt Ideal)) :
    Cert.KernelIdeal.Entry.aggOf (F := Ideal) x0 x1 x2 = Cert.ReferenceIdeal.Read.val_main_v9 (F := Ideal) x0 x1 x2 := rfl

/-- The kernel program's in-degrees are the array program's: the same scatter-add of ones. -/
theorem deg_same (x2 : (⟨Cert.KernelIdeal.S600000, .i32⟩ : BufTy).Contents (Elt Ideal)) :
    Cert.KernelIdeal.Entry.degOf (F := Ideal) x2 = Cert.ReferenceIdeal.Read.val_main_v13 (F := Ideal) x2 := rfl

/-! ## The kernel's results as functions of the launch contents -/

section
open Cert.KernelIdeal Cert.KernelIdeal.Gen Cert.KernelIdeal.Blocks Cert.KernelIdeal.Entry
variable (m : (ℓ : Loc nD τ sig) → Buf (Elt Ideal) ℓ)

theorem degK_eq (c : Dev nD) : degK m c = degOf (m ((c : Thread nD τ).loc main_arg2)) := by
  funext i
  obtain ⟨r, rfl⟩ : ∃ r : Fin 100000, i = ix1 r := ⟨i 0, eq_ix1 i⟩
  exact degColumn_apply m c r

theorem biasK_eq (c : Dev nD) : biasK m c = m ((c : Thread nD τ).loc main_arg5) := by
  funext i
  obtain ⟨q, rfl⟩ : ∃ q : Fin 128, i = ix1 q := ⟨i 0, eq_ix1 i⟩
  exact biasRow_apply m c q

theorem biasK'_eq (c : Dev nD) : biasK' m c = m ((c : Thread nD τ).loc main_arg7) := by
  funext i
  obtain ⟨j, rfl⟩ : ∃ j : Fin 40, i = ix1 j := ⟨i 0, eq_ix1 i⟩
  exact biasRow'_apply m c j

/-- The kernel's hidden result is the layer's hidden function of the launch contents. -/
theorem hiddenK_eq (c : Dev nD) : hiddenK m c
    = hidden (m ((c : Thread nD τ).loc main_arg0))
        (aggOf (m ((c : Thread nD τ).loc main_arg0)) (m ((c : Thread nD τ).loc main_arg1)) (m ((c : Thread nD τ).loc main_arg2)))
        (degOf (m ((c : Thread nD τ).loc main_arg2))) (m ((c : Thread nD τ).loc main_arg3)) (m ((c : Thread nD τ).loc main_arg4))
        (m ((c : Thread nD τ).loc main_arg5)) := by
  unfold hiddenK
  rw [V_main_arg0 m c, V_agg m c, V_main_arg3 m c, V_main_arg4 m c, degK_eq m c, biasK_eq m c]

/-- The kernel's score result is the layer's scores of that hidden function. -/
theorem scoresK_eq (c : Dev nD) : scoresK m c
    = scores (hidden (m ((c : Thread nD τ).loc main_arg0))
        (aggOf (m ((c : Thread nD τ).loc main_arg0)) (m ((c : Thread nD τ).loc main_arg1)) (m ((c : Thread nD τ).loc main_arg2)))
        (degOf (m ((c : Thread nD τ).loc main_arg2))) (m ((c : Thread nD τ).loc main_arg3)) (m ((c : Thread nD τ).loc main_arg4))
        (m ((c : Thread nD τ).loc main_arg5))) (m ((c : Thread nD τ).loc main_arg6)) (m ((c : Thread nD τ).loc main_arg7)) := by
  unfold scoresK
  rw [hiddenK_eq m c, V_main_arg6 m c, biasK'_eq m c]

end

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both programs, from memories that agree on the eight arguments, end with the layer's scores and hidden activations of
    those arguments. -/
theorem algebraic : Cert.algebraic_KernelIdeal_ReferenceIdeal := by
  intro m ρ m' ρ' _ hagree
  refine ⟨fun c => Cert.KernelIdeal.Blocks.scoresK m c, fun c => Cert.KernelIdeal.Blocks.hiddenK m c,
    Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7⟩ := hagree c
    show _ = Cert.KernelIdeal.Blocks.scoresK m c
    rw [Cert.ReferenceIdeal.Read.val_main_v29_eq, Cert.ReferenceIdeal.Layer.scores_eq, Cert.ReferenceIdeal.Layer.hidden_eq,
      e0, e1, e2, e3, e4, e5, e6, e7, scoresK_eq m c, ← agg_same, ← deg_same]
  · obtain ⟨e0, e1, e2, e3, e4, e5, e6, e7⟩ := hagree c
    show _ = Cert.KernelIdeal.Blocks.hiddenK m c
    rw [Cert.ReferenceIdeal.Read.val_main_v25_eq, Cert.ReferenceIdeal.Layer.hidden_eq,
      e0, e1, e2, e3, e4, e5, hiddenK_eq m c, ← agg_same, ← deg_same]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
